-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S256x1024 .f32) (main_arg6 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S256x1024 .f32 := Host.absf main_arg5
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8192x256 .f32) (main_arg1 : FVec F S8192x1024 .f32) (main_arg2 : IVec S8192x1024 32) (main_arg3 : FVec F S8192x1024 .f32) (main_arg4 : FVec F S8192x1024 .f32) (main_arg5 : FVec F S256x1024 .f32) (main_arg6 : FVec F S1024x1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_v13 main_v16
-- ==== Kernel.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩
abbrev S256x256 : Shape := ⟨2, ![256, 256]⟩

abbrev nBuf : Space → Nat
  | .hbm => 23
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .i32⟩
  | .hbm, ⟨3, _⟩ => ⟨S8192x1024, .f32⟩
  | .hbm, ⟨4, _⟩ => ⟨S8192x1024, .f32⟩
  | .hbm, ⟨5, _⟩ => ⟨S256x1024, .f32⟩
  | .hbm, ⟨6, _⟩ => ⟨S1024x1024, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S256x1024, .bf16⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S256x1024, .f32⟩
  | .local _ .vmem, ⟨4, _⟩ => ⟨S256x1024, .i32⟩
  | .local _ .vmem, ⟨5, _⟩ => ⟨S256x1024, .i32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .i32⟩
  | .local _ .vmem, ⟨17, _⟩ => ⟨S256x1024, .i32⟩
  | .local _ .vmem, ⟨18, _⟩ => ⟨S256x1024, .f32⟩
  | .local _ .vmem, ⟨19, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1024x1024 : S_.BroadcastsInDim S1024x1024 (![] : Fin 0 → Fin S1024x1024.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  dot_S256x256_S256x1024_S256x1024_1_0_0_1_n_n_wf : DotDims.WF S256x256 S256x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .i32 = 32 ∨ (Rect.block (s := S8192x1024) S256x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .i32 = 32 ∨ (Rect.block (s := S8192x1024) S256x1024.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_3) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .i32⟩
  | .hbm, ⟨3, _⟩ => ⟨S8192x1024, .f32⟩
  | .hbm, ⟨4, _⟩ => ⟨S8192x1024, .f32⟩
  | .hbm, ⟨5, _⟩ => ⟨S256x1024, .f32⟩
  | .hbm, ⟨6, _⟩ => ⟨S1024x1024, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .i1⟩
  | .hbm, ⟨57, _⟩ => ⟨S_, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .i32⟩
  | .hbm, ⟨77, _⟩ => ⟨S8192x1024, .i32⟩
  | .hbm, ⟨78, _⟩ => ⟨S8192x1024, .i1⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .i1⟩
  | .hbm, ⟨89, _⟩ => ⟨S8192x1024, .f32⟩
  | .hbm, ⟨90, _⟩ => ⟨S_, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S_, .i32⟩
  | .hbm, ⟨95, _⟩ => ⟨S8192x1024, .i32⟩
  | .hbm, ⟨96, _⟩ => ⟨S8192x1024, .i32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .i32⟩
  | .hbm, ⟨101, _⟩ => ⟨S8192x1024, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S8192x1024, .i32⟩
  | .hbm, ⟨106, _⟩ => ⟨S8192x1024, .i32⟩
  | .hbm, ⟨107, _⟩ => ⟨S_, .i32⟩
  | .hbm, ⟨108, _⟩ => ⟨S8192x1024, .i32⟩
  | .hbm, ⟨109, _⟩ => ⟨S8192x1024, .i32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_call2_v0 : Ref sig .tc := ⟨.hbm, 58, rfl⟩
abbrev main_call2_v1 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_14 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_15 : Ref sig .tc := ⟨.hbm, 76, rfl⟩
abbrev main_v43 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_17 : Ref sig .tc := ⟨.hbm, 83, rfl⟩
abbrev main_v48 : Ref sig .tc := ⟨.hbm, 84, rfl⟩
abbrev main_v49 : Ref sig .tc := ⟨.hbm, 85, rfl⟩
abbrev main_cst_18 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_19 : Ref sig .tc := ⟨.hbm, 90, rfl⟩
abbrev main_call3_v0 : Ref sig .tc := ⟨.hbm, 91, rfl⟩
abbrev main_call3_v1 : Ref sig .tc := ⟨.hbm, 92, rfl⟩
abbrev main_v53 : Ref sig .tc := ⟨.hbm, 93, rfl⟩
abbrev main_c_20 : Ref sig .tc := ⟨.hbm, 94, rfl⟩
abbrev main_v54 : Ref sig .tc := ⟨.hbm, 95, rfl⟩
abbrev main_v55 : Ref sig .tc := ⟨.hbm, 96, rfl⟩
abbrev main_cst_21 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_22 : Ref sig .tc := ⟨.hbm, 102, rfl⟩
abbrev main_c_23 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v60 : Ref sig .tc := ⟨.hbm, 109, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S8192x1024 : S_.BroadcastsInDim S8192x1024 (![] : Fin 0 → Fin S8192x1024.rank)
  dot_S8192x256_S256x1024_S8192x1024_1_0_0_1_n_n_wf : DotDims.WF S8192x256 S256x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Neuron.lean ====
/-
  One time step of an adaptive exponential integrate-and-fire neuron, as functions of ONE neuron's state.

  State: the membrane potential `v`, the adaptation current `w`, the previous spike `z` (a float, 0 or 1 in the
  model) and the refractory counter `r` (a 32-bit integer); `I` is the input current the neuron receives.  With
  θ = -50.4, E = -70.6, a = 30/281, b = 2a, all as the single-precision words the programs spell:

    u  = v - a·(v - E) + b·min(e^{(v-θ)/2}, 281) + ((I - w)·1)/281        (`drive`)
    v' = E if z > 1/2, else u                                              (`reset`)
    w' = w - w/144 + (v - E)/36 + 0.0805·z     (the three factors as spelt words)        (`adapt`)
    z' = 0 if r > 0, else [ (-(θ - v'))/20.2 > 0 ]                         (`spike`)
    r' = min(5, max(0, (r - 1) + ⌊5·z'⌋))                                  (`refrac`)

  Two spellings of `u` and of `z'` occur.  One program bounds the exponential above only, divides with the vector
  unit's quotient, negates by `0 - x` and turns the comparison's bit into a float through a 32-bit word, read signed;
  the other clips the exponential to [-10^6, 281], divides and negates with the host's operations and reads the bit
  unsigned.  At the ideal values (extended reals, exact operations) they are the same functions:
    * the exponential of an extended real is ≥ 0 (it is 0 at -∞), and the word 0xC9742400 denotes -10^6 ≤ 0, so the
      lower clip `max(-10^6, ·)` is the identity on it (`lowerClip_exp`); `min` is commutative;
    * both quotients are the one quotient of extended reals, both exponentials the one exponential;
    * `0 - x = -x` on every extended real, the infinities included;
    * a one-bit word widened to 32 bits and read signed is the bit read unsigned.
  No step uses finiteness of any input.
-/
import Idealize.ShloMosaic.PureOps.Ideal
import Idealize.ShloMosaic.PureOps.Ideal.Laws
import Idealize.ShloMosaic.Lib.KernelVsHost

noncomputable section

namespace Cert.Neuron

open Idealize.ShloMosaic

variable {F : FTy → Type} [FloatOps F]

/-- The potential after the step, before the reset: exponential bounded above, the vector unit's quotients. -/
def drive (v w cur : F .f32) : F .f32 :=
  FloatOps.addf
    (FloatOps.addf
      (FloatOps.subf v (FloatOps.mulf (FloatOps.ofBits .f32 0x3DDAA5CF#32) (FloatOps.subf v (FloatOps.ofBits .f32 0xC28D3333#32))))
      (FloatOps.mulf (FloatOps.ofBits .f32 0x3E5AA5CF#32)
        (FloatOps.minimumf
          (FloatOps.exp (FloatOps.divf (FloatOps.subf v (FloatOps.ofBits .f32 0xC249999A#32)) (FloatOps.ofBits .f32 0x40000000#32)))
          (FloatOps.ofBits .f32 0x438C8000#32))))
    (FloatOps.divf (FloatOps.mulf (FloatOps.subf cur w) (FloatOps.ofBits .f32 0x3F800000#32)) (FloatOps.ofBits .f32 0x438C8000#32))

/-- The same potential in the host's spelling: exponential clipped on both sides, the host's quotients. -/
def driveHost (v w cur : F .f32) : F .f32 :=
  FloatOps.addf
    (FloatOps.addf
      (FloatOps.subf v (FloatOps.mulf (FloatOps.ofBits .f32 0x3DDAA5CF#32) (FloatOps.subf v (FloatOps.ofBits .f32 0xC28D3333#32))))
      (FloatOps.mulf (FloatOps.ofBits .f32 0x3E5AA5CF#32)
        (FloatOps.minimumf (FloatOps.ofBits .f32 0x438C8000#32)
          (FloatOps.maximumf (FloatOps.ofBits .f32 0xC9742400#32)
            (FloatOps.hostUnary .exp (FloatOps.hostDivf (FloatOps.subf v (FloatOps.ofBits .f32 0xC249999A#32)) (FloatOps.ofBits .f32 0x40000000#32)))))))
    (FloatOps.hostDivf (FloatOps.mulf (FloatOps.subf cur w) (FloatOps.ofBits .f32 0x3F800000#32)) (FloatOps.ofBits .f32 0x438C8000#32))

/-- A neuron that spiked at the previous step restarts from the resting potential. -/
def reset (z u : F .f32) : F .f32 :=
  Scalar.select (FloatOps.cmpf .ogt z (FloatOps.ofBits .f32 0x3F000000#32)) (FloatOps.ofBits .f32 0xC28D3333#32) u

/-- The adaptation current after the step. -/
def adapt (v w z : F .f32) : F .f32 :=
  FloatOps.addf
    (FloatOps.addf
      (FloatOps.subf w (FloatOps.mulf (FloatOps.ofBits .f32 0x3BE38E39#32) w))
      (FloatOps.mulf (FloatOps.ofBits .f32 0x3CE38E39#32) (FloatOps.subf v (FloatOps.ofBits .f32 0xC28D3333#32))))
    (FloatOps.mulf (FloatOps.ofBits .f32 0x3DA4DD2F#32) z)

/-- The spike of a neuron with counter `r` and new potential `nv`: negation by `0 - x`, the bit through a signed word. -/
def spike (r : BitVec 32) (nv : F .f32) : F .f32 :=
  Scalar.select (IntOp.cmpi .sgt r 0#32) (FloatOps.ofBits .f32 0x00000000#32)
    (FloatOps.sitofp .f32
      ((FloatOps.cmpf .ogt
        (FloatOps.divf
          (FloatOps.subf (FloatOps.ofBits .f32 0x00000000#32) (FloatOps.subf (FloatOps.ofBits .f32 0xC249999A#32) nv))
          (FloatOps.ofBits .f32 0x41A1999A#32))
        (FloatOps.ofBits .f32 0x00000000#32)).setWidth 32))

/-- The same spike in the host's spelling: the host's negation and quotient, the bit read unsigned. -/
def spikeHost (r : BitVec 32) (nv : F .f32) : F .f32 :=
  Scalar.select (IntOp.cmpi .sgt r 0#32) (FloatOps.ofBits .f32 0x00000000#32)
    (FloatOps.uitofp .f32
      (FloatOps.cmpf .ogt
        (FloatOps.hostDivf
          (FloatOps.hostNegf (FloatOps.subf (FloatOps.ofBits .f32 0xC249999A#32) nv))
          (FloatOps.ofBits .f32 0x41A1999A#32))
        (FloatOps.ofBits .f32 0x00000000#32)))

/-- The refractory counter after the step. -/
def refrac (r : BitVec 32) (nz : F .f32) : BitVec 32 :=
  IntOp.minsi 5#32 (IntOp.maxsi 0#32
    (IntOp.addi (IntOp.subi r 1#32) (FloatOps.fptosi 32 (FloatOps.mulf nz (FloatOps.ofBits .f32 0x40A00000#32)))))

/-! ## At the ideal values the two spellings are one function -/

/-- The word `0xC9742400` denotes `-10^6`. -/
theorem ofBits_lowerBound : Ideal.ofBits .f32 0xC9742400#32 = ((-1000000 : ℝ) : EReal) := by
  simp [Ideal.ofBits, Ideal.ieee, -EReal.coe_mul]; norm_num

/-- The exponential of an extended real is nonnegative: `0` at `-∞`, `+∞` at `+∞`, `e^r > 0` at a real. -/
theorem exp_nonneg (x : EReal) : 0 ≤ Ideal.exp x := by
  induction x using EReal.rec with
  | bot => simp
  | top => simp
  | coe r => rw [Ideal.exp_coe]; exact_mod_cast (Real.exp_pos r).le

/-- Clipping an exponential below at `-10^6` changes nothing. -/
theorem lowerClip_exp (x : EReal) : max (Ideal.ofBits .f32 0xC9742400#32) (Ideal.exp x) = Ideal.exp x := by
  refine max_eq_right (le_trans ?_ (exp_nonneg x))
  rw [ofBits_lowerBound]
  exact_mod_cast (by norm_num : (-1000000 : ℝ) ≤ 0)

theorem driveHost_eq (v w cur : Ideal .f32) : driveHost (F := Ideal) v w cur = drive (F := Ideal) v w cur := by
  unfold driveHost drive
  simp only [Ideal.hostDivf_def, Ideal.divf_def, Ideal.hostUnary_exp_def, Ideal.exp_def, Ideal.minimumf_def,
    Ideal.maximumf_def, Ideal.ofBits_def, lowerClip_exp]
  rw [min_comm]

theorem spikeHost_eq (r : BitVec 32) (nv : Ideal .f32) : spikeHost (F := Ideal) r nv = spike (F := Ideal) r nv := by
  unfold spikeHost spike
  rw [← Ideal.subf_zero_eq_hostNegf]
  congr 1
  show ((( _ : BitVec 1).toNat : ℝ) : EReal) = (((( _ : BitVec 1).setWidth 32).toInt : ℝ) : EReal)
  rw [toInt_setWidth_bit]
  norm_cast

end Cert.Neuron

end
-- ==== Proof.KernelPoint.lean ====
/-
  What the kernel's body computes from the blocks it loads, read at one entry.

  At a grid point the body loads a block of 256 samples of the inputs (`v0`, 256 × 256), of the previous spikes
  (`v2`), potentials (`v11`), adaptation currents (`v12`) and refractory counters (`v13`) (each 256 × 1024), and the
  two whole weight matrices (`v4`, 256 × 1024; `v7`, 1024 × 1024).  Its five stored values are pointwise in the
  entry (`p`, `q`) of the block except for the two matrix products, and at the ideal values:
    * a change of float format is the identity, a cast of a shape to itself is the identity;
    * a matrix product into the zero accumulator is, at entry (`p`, `q`), the sum over the contracted index `k` of the
      left factor at (`p`, `k`) times the right factor at (`k`, `q`) (`product1_apply`, `product2_apply`);
  so entry (`p`, `q`) of each stored value is the scalar step of Proof/Neuron.lean at the loaded blocks' entries
  (`p`, `q`) and the current `Σ_k v0(p,k)·v4(k,q) + Σ_k v2(p,k)·v7(k,q)`.
-/
import proofs.«180994_j80693845557792_2_alg».proof.Proof.Gen.KernelIdeal.Skeleton
import proofs.«180994_j80693845557792_2_alg».proof.Proof.Neuron
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx

/-! ## The two matrix products at an entry -/

theorem lhs1_0 (j : S256x1024.Idx) (q : dot_S256x256_S256x1024_S256x1024_1_0_0_1_n_n.contr.Idx) : (dot_S256x256_S256x1024_S256x1024_1_0_0_1_n_n.lhsIdx j q 0).val = (j 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs1_1 (j : S256x1024.Idx) (q : dot_S256x256_S256x1024_S256x1024_1_0_0_1_n_n.contr.Idx) : (dot_S256x256_S256x1024_S256x1024_1_0_0_1_n_n.lhsIdx j q 1).val = (q ⟨0, by decide⟩).val :=
  dot_S256x256_S256x1024_S256x1024_1_0_0_1_n_n.lhsIdx_val_of_single rfl j q
theorem rhs1_0 (j : S256x1024.Idx) (q : dot_S256x256_S256x1024_S256x1024_1_0_0_1_n_n.contr.Idx) : (dot_S256x256_S256x1024_S256x1024_1_0_0_1_n_n.rhsIdx j q 0).val = (q ⟨0, by decide⟩).val :=
  dot_S256x256_S256x1024_S256x1024_1_0_0_1_n_n.rhsIdx_val_of_single rfl j q
theorem rhs1_1 (j : S256x1024.Idx) (q : dot_S256x256_S256x1024_S256x1024_1_0_0_1_n_n.contr.Idx) : (dot_S256x256_S256x1024_S256x1024_1_0_0_1_n_n.rhsIdx j q 1).val = (j 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The product of a block of 256 rows with a 256-row matrix, into the zero accumulator, at entry (`p`, `q`): the sum over
    the contracted index `k` of the left factor's entry (`p`, `k`) times the right factor's entry (`k`, `q`). -/
theorem product1_apply (a : FVec Ideal S256x256 .bf16) (b : FVec Ideal S256x1024 .bf16) (p : Fin 256) (q : Fin 1024) :
    matmul dot_S256x256_S256x1024_S256x1024_1_0_0_1_n_n none a b (constant S256x1024 .f32 0x00000000#32) (ix2 p q)
      = ∑ k : Fin 256, a (ix2 p k) * b (ix2 k q) := by
  refine (Ideal.matmul_constant_zero_apply dot_S256x256_S256x1024_S256x1024_1_0_0_1_n_n none a b (ix2 p q)).trans ?_
  rw [← Equiv.sum_comp (ValueIdx.contrEquiv1 dot_S256x256_S256x1024_S256x1024_1_0_0_1_n_n 256 rfl rfl).symm]
  refine Finset.sum_congr rfl fun k _ => ?_
  have hk := ValueIdx.contrEquiv1_symm_val dot_S256x256_S256x1024_S256x1024_1_0_0_1_n_n 256 rfl rfl k
  have el : dot_S256x256_S256x1024_S256x1024_1_0_0_1_n_n.lhsIdx (ix2 p q) ((ValueIdx.contrEquiv1 dot_S256x256_S256x1024_S256x1024_1_0_0_1_n_n 256 rfl rfl).symm k) = ix2 p k := funext fun a => Fin.ext (by
    match a with
    | ⟨0, _⟩ => exact lhs1_0 _ _
    | ⟨1, _⟩ => exact (lhs1_1 _ _).trans hk)
  have er : dot_S256x256_S256x1024_S256x1024_1_0_0_1_n_n.rhsIdx (ix2 p q) ((ValueIdx.contrEquiv1 dot_S256x256_S256x1024_S256x1024_1_0_0_1_n_n 256 rfl rfl).symm k) = ix2 k q := funext fun a => Fin.ext (by
    match a with
    | ⟨0, _⟩ => exact (rhs1_0 _ _).trans hk
    | ⟨1, _⟩ => exact rhs1_1 _ _)
  rw [el, er]

theorem lhs2_0 (j : S256x1024.Idx) (q : dot_S256x1024_S1024x1024_S256x1024_1_0_0_1_n_n.contr.Idx) : (dot_S256x1024_S1024x1024_S256x1024_1_0_0_1_n_n.lhsIdx j q 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs2_1 (j : S256x1024.Idx) (q : dot_S256x1024_S1024x1024_S256x1024_1_0_0_1_n_n.contr.Idx) : (dot_S256x1024_S1024x1024_S256x1024_1_0_0_1_n_n.lhsIdx j q 1).val = (q ⟨0, by decide⟩).val :=
  dot_S256x1024_S1024x1024_S256x1024_1_0_0_1_n_n.lhsIdx_val_of_single rfl j q
theorem rhs2_0 (j : S256x1024.Idx) (q : dot_S256x1024_S1024x1024_S256x1024_1_0_0_1_n_n.contr.Idx) : (dot_S256x1024_S1024x1024_S256x1024_1_0_0_1_n_n.rhsIdx j q 0).val = (q ⟨0, by decide⟩).val :=
  dot_S256x1024_S1024x1024_S256x1024_1_0_0_1_n_n.rhsIdx_val_of_single rfl j q
theorem rhs2_1 (j : S256x1024.Idx) (q : dot_S256x1024_S1024x1024_S256x1024_1_0_0_1_n_n.contr.Idx) : (dot_S256x1024_S1024x1024_S256x1024_1_0_0_1_n_n.rhsIdx j q 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product of a block of 256 rows with a 1024-row matrix, into the zero accumulator, at entry (`p`, `q`): the sum over
    the contracted index `k` of the left factor's entry (`p`, `k`) times the right factor's entry (`k`, `q`). -/
theorem product2_apply (a : FVec Ideal S256x1024 .bf16) (b : FVec Ideal S1024x1024 .bf16) (p : Fin 256) (q : Fin 1024) :
    matmul dot_S256x1024_S1024x1024_S256x1024_1_0_0_1_n_n none a b (constant S256x1024 .f32 0x00000000#32) (ix2 p q)
      = ∑ k : Fin 1024, a (ix2 p k) * b (ix2 k q) := by
  refine (Ideal.matmul_constant_zero_apply dot_S256x1024_S1024x1024_S256x1024_1_0_0_1_n_n none a b (ix2 p q)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs2_0 _ _
    | ⟨1, _⟩ => exact (lhs2_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-! ## The stored values at an entry -/

variable (v0 : Vec Ideal S256x256 .f32) (v2 : Vec Ideal S256x1024 .f32) (v4 : Vec Ideal S256x1024 .bf16)
  (v7 : Vec Ideal S1024x1024 .bf16) (v11 v12 : Vec Ideal S256x1024 .f32) (v13 : Vec Ideal S256x1024 .i32)
  (v34 : FVec Ideal S256x1024 .f32)

/-- The potential before the reset. -/
theorem potential_apply (p : Fin 256) (q : Fin 1024) :
    k0_pay1 v0 v2 v4 v7 v11 v12 (ix2 p q)
      = Neuron.drive (F := Ideal) (v11 (ix2 p q)) (v12 (ix2 p q))
          ((∑ k : Fin 256, v0 (ix2 p k) * v4 (ix2 k q)) + ∑ k : Fin 1024, v2 (ix2 p k) * v7 (ix2 k q)) := by
  have h1 := product1_apply (truncf .bf16 v0 bitsLt_bf16_f32) (shapeCast S256x1024 v4 shapeCasts_S256x1024_S256x1024) p q
  have h2 := product2_apply (truncf .bf16 v2 bitsLt_bf16_f32) (shapeCast S1024x1024 v7 shapeCasts_S1024x1024_S1024x1024) p q
  rw [shapeCast_self] at h1 h2
  show Neuron.drive (F := Ideal) (v11 (ix2 p q)) (v12 (ix2 p q))
      (FloatOps.addf
        (matmul dot_S256x256_S256x1024_S256x1024_1_0_0_1_n_n none (truncf .bf16 v0 bitsLt_bf16_f32) (shapeCast S256x1024 v4 shapeCasts_S256x1024_S256x1024) (constant S256x1024 .f32 0x00000000#32) (ix2 p q))
        (matmul dot_S256x1024_S1024x1024_S256x1024_1_0_0_1_n_n none (truncf .bf16 v2 bitsLt_bf16_f32) (shapeCast S1024x1024 v7 shapeCasts_S1024x1024_S1024x1024) (constant S256x1024 .f32 0x00000000#32) (ix2 p q))) = _
  rw [shapeCast_self, shapeCast_self, h1, h2]
  rfl

/-- The new potential: the reset of the potential before it. -/
theorem newPotential_apply (j : S256x1024.Idx) :
    k0_pay2 v2 v34 j = Neuron.reset (F := Ideal) (v2 j) (v34 j) := rfl

/-- The new adaptation current. -/
theorem newAdaptation_apply (j : S256x1024.Idx) :
    k0_pay3 v2 v11 v12 j = Neuron.adapt (F := Ideal) (v11 j) (v12 j) (v2 j) := rfl

/-- The new spike, from the counter and the new potential. -/
theorem newSpike_apply (j : S256x1024.Idx) :
    k0_pay4 v2 v13 v34 j = Neuron.spike (F := Ideal) (v13 j) (k0_pay2 v2 v34 j) := rfl

/-- The new counter, from the counter and the new spike. -/
theorem newCounter_apply (j : S256x1024.Idx) :
    k0_pay5 v2 v13 v34 j = Neuron.refrac (F := Ideal) (v13 j) (k0_pay4 v2 v13 v34 j) := rfl

end Cert.KernelIdeal.Point

end
-- ==== Proof.KernelOut.lean ====
/-
  What the body leaves in each of the four output blocks, at entry (`p`, `q`), as a function of the seven input blocks.

  Each output block is written by ONE store of the whole block, so what the block holds after the body is that
  store's value, and each load reads a whole input block; entry (`p`, `q`) is then the scalar step
  (Proof/Neuron.lean) of the blocks' entries at (`p`, `q`) and of the block's current
  `Σ_k x0(p,k)·x5(k,q) + Σ_k x4(p,k)·x6(k,q)` (`blockCurrent`): `x0` the inputs' block, `x1` the potentials', `x2` the
  counters', `x3` the adaptation currents', `x4` the previous spikes', `x5` and `x6` the two weight matrices.
-/
import proofs.«180994_j80693845557792_2_alg».proof.Proof.Gen.KernelIdeal.Frame
import proofs.«180994_j80693845557792_2_alg».proof.Proof.KernelPoint

noncomputable section

namespace Cert.KernelIdeal.Out

open Cert.KernelIdeal Cert.KernelIdeal.Gen Idealize.ShloMosaic Idealize.ShloMosaic.ValueIdx

/-- Every load and store of the body starts at the block's origin. -/
theorem origin : (![0, 0] : Fin 2 → Nat) = fun _ => 0 := funext fun a => by fin_cases a <;> rfl

variable (x0 : Vec Ideal S256x256 .f32) (x1 : Vec Ideal S256x1024 .f32) (x2 : Vec Ideal S256x1024 .i32)
  (x3 x4 : Vec Ideal S256x1024 .f32) (x5 : Vec Ideal S256x1024 .bf16) (x6 : Vec Ideal S1024x1024 .bf16)

/-- The current of the block's neuron (`p`, `q`). -/
def blockCurrent (p : Fin 256) (q : Fin 1024) : EReal :=
  (∑ k : Fin 256, x0 (ix2 p k) * x5 (ix2 k q)) + ∑ k : Fin 1024, x4 (ix2 p k) * x6 (ix2 k q)

/-- The new potential of the block's neuron (`p`, `q`). -/
def blockPotential (p : Fin 256) (q : Fin 1024) : EReal :=
  Neuron.reset (F := Ideal) (x4 (ix2 p q)) (Neuron.drive (F := Ideal) (x1 (ix2 p q)) (x3 (ix2 p q)) (blockCurrent x0 x4 x5 x6 p q))

theorem potentials_apply (p : Fin 256) (q : Fin 1024) :
    out0_7 x0 x1 x2 x3 x4 x5 x6 (ix2 p q) = blockPotential x0 x1 x3 x4 x5 x6 p q := by
  unfold out0_7
  rw [View.canon_unit_zero origin]
  simp only [View.ld_unit_zero (S := S256x256) origin, View.ld_unit_zero (S := S256x1024) origin, View.ld_unit_zero (S := S1024x1024) origin]
  rw [Point.newPotential_apply, Point.potential_apply]
  rfl

theorem spikes_apply (p : Fin 256) (q : Fin 1024) :
    out0_8 x0 x1 x2 x3 x4 x5 x6 (ix2 p q) = Neuron.spike (F := Ideal) (x2 (ix2 p q)) (blockPotential x0 x1 x3 x4 x5 x6 p q) := by
  unfold out0_8
  rw [View.canon_unit_zero origin]
  simp only [View.ld_unit_zero (S := S256x256) origin, View.ld_unit_zero (S := S256x1024) origin, View.ld_unit_zero (S := S1024x1024) origin]
  rw [Point.newSpike_apply, Point.newPotential_apply, Point.potential_apply]
  rfl

theorem counters_apply (p : Fin 256) (q : Fin 1024) :
    out0_9 x0 x1 x2 x3 x4 x5 x6 (ix2 p q)
      = Neuron.refrac (F := Ideal) (x2 (ix2 p q)) (Neuron.spike (F := Ideal) (x2 (ix2 p q)) (blockPotential x0 x1 x3 x4 x5 x6 p q)) := by
  unfold out0_9
  rw [View.canon_unit_zero origin]
  simp only [View.ld_unit_zero (S := S256x256) origin, View.ld_unit_zero (S := S256x1024) origin, View.ld_unit_zero (S := S1024x1024) origin]
  rw [Point.newCounter_apply, Point.newSpike_apply, Point.newPotential_apply, Point.potential_apply]
  rfl

theorem adaptations_apply (j : S256x1024.Idx) :
    out0_10 x0 x1 x2 x3 x4 x5 x6 j = Neuron.adapt (F := Ideal) (x1 j) (x3 j) (x4 j) := by
  unfold out0_10
  rw [View.canon_unit_zero origin]
  simp only [View.ld_unit_zero (S := S256x1024) origin]
  rw [Point.newAdaptation_apply]

end Cert.KernelIdeal.Out

end
-- ==== Proof.Layer.lean ====
/-
  A layer of 1024 adaptive exponential integrate-and-fire neurons stepped once for a batch of 8192 samples: each result
  array as ONE function of the argument arrays, index by index.

  The arguments: the inputs `x` (8192 × 256), the potentials `v`, refractory counters `r`, adaptation currents `w`
  and previous spikes `z` (each 8192 × 1024), the input weights `wi` (256 × 1024) and the recurrent weights `wr`
  (1024 × 1024; the programs pass the matrix with its diagonal already zeroed — nothing here depends on that).
  Neuron `j` of sample `b` receives the current

      I(b, j) = Σ_{k < 256} x(b, k) · wi(k, j)  +  Σ_{k < 1024} z(b, k) · wr(k, j)

  (`current`), and its four new state entries are the scalar step of Proof/Neuron.lean at entry (b, j) of `v`, `r`, `w`,
  `z` and that current.  The two sums are sums of extended reals over the contracted index, in no particular order:
  a program that contracts over all 8192 rows at once and one that contracts a block of 256 rows at a time give
  the same sums entry by entry.
-/
import proofs.«180994_j80693845557792_2_alg».proof.Proof.Neuron
import Idealize.ShloMosaic.Lib.ValueIdx

noncomputable section

namespace Cert.Layer

open Idealize.ShloMosaic

/-- batch × neurons -/
abbrev SB : Shape := ⟨2, ![8192, 1024]⟩

/-- Row `b` (the first coordinate of `i`) of an array with 8192 rows, at column `k`. -/
abbrev rowAt {n : Nat} (i : SB.Idx) (k : Fin n) : (⟨2, ![8192, n]⟩ : Shape).Idx :=
  ValueIdx.ix2 (⟨(i 0).val, ValueIdx.idx2_lt0 i⟩ : Fin 8192) k

/-- Column `j` (the second coordinate of `i`) of an array with 1024 columns, at row `k`. -/
abbrev colAt {n : Nat} (i : SB.Idx) (k : Fin n) : (⟨2, ![n, 1024]⟩ : Shape).Idx :=
  ValueIdx.ix2 k (⟨(i 1).val, ValueIdx.idx2_lt1 i⟩ : Fin 1024)

/-- The current neuron `i 1` of sample `i 0` receives: the inputs through the input weights plus the previous spikes
    through the recurrent weights. -/
def current (x : (⟨2, ![8192, 256]⟩ : Shape).Idx → EReal) (z : SB.Idx → EReal)
    (wi : (⟨2, ![256, 1024]⟩ : Shape).Idx → EReal) (wr : (⟨2, ![1024, 1024]⟩ : Shape).Idx → EReal) (i : SB.Idx) : EReal :=
  (∑ k : Fin 256, x (rowAt i k) * wi (colAt i k)) + ∑ k : Fin 1024, z (rowAt i k) * wr (colAt i k)

variable (x : (⟨2, ![8192, 256]⟩ : Shape).Idx → EReal) (v : SB.Idx → EReal) (r : SB.Idx → BitVec 32) (w z : SB.Idx → EReal)
  (wi : (⟨2, ![256, 1024]⟩ : Shape).Idx → EReal) (wr : (⟨2, ![1024, 1024]⟩ : Shape).Idx → EReal)

/-- The new potentials. -/
def newV (i : SB.Idx) : EReal :=
  Neuron.reset (F := Ideal) (z i) (Neuron.drive (F := Ideal) (v i) (w i) (current x z wi wr i))

/-- The new spikes. -/
def newZ (i : SB.Idx) : EReal := Neuron.spike (F := Ideal) (r i) (newV x v w z wi wr i)

/-- The new refractory counters. -/
def newR (i : SB.Idx) : BitVec 32 := Neuron.refrac (F := Ideal) (r i) (newZ x v r w z wi wr i)

/-- The new adaptation currents. -/
def newW (i : SB.Idx) : EReal := Neuron.adapt (F := Ideal) (v i) (w i) (z i)

end Cert.Layer

end
-- ==== Proof.KernelBlocks.lean ====
/-
  From the blocks the kernel writes to the four result arrays, and the kernel's run.

  The grid has 32 points; at point `t` the five sample-indexed operands (inputs, potentials, counters, adaptation
  currents, previous spikes) and the four results are staged as their block of 256 samples number `t` — entry (`p`, `q`)
  of the block is entry (256·t + p, q) of the array (`sample`; the index maps are decided once over the 32 points:
  `index_tiled`) — and the two weight matrices as their one whole block (`index_whole`).  So what point `t` writes back
  to a result array (Proof/KernelOut.lean, at the blocks the point loads) is block `t` of the layer step of
  Proof/Layer.lean applied to the arrays as the region finds them: the block's current sums over the same products
  as the array's current at row 256·t + p (`potential_of_blocks`).  Sample `b` lies in block `b / 256`, so the 32 blocks
  cover each result array, and each array ends holding the layer step everywhere (`Dat.arrAt_eq_of_cover`).
  The region finds the five sample-indexed arguments as launched; the two weight operands are written by host
  operations before it — the input weights with their float format changed, which is the identity at the ideal
  values, and the recurrent weights with the diagonal replaced by zero and then the same change of format
  (`diagonalZeroed`, the program's own operations, kept as one function).
-/
import proofs.«180994_j80693845557792_2_alg».proof.Proof.Gen.KernelIdeal.Value
import proofs.«180994_j80693845557792_2_alg».proof.Proof.KernelOut
import proofs.«180994_j80693845557792_2_alg».proof.Proof.Layer
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The index maps over the grid -/

theorem points : cfg0.N = 32 := N_0

/-- The sample-indexed windows are at block (`t`, 0) at point `t`. -/
theorem index_tiled : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- The two weight windows are at block (0, 0) at every point. -/
theorem index_whole : ∀ t : Fin cfg0.N, win0_5.index t = ![0, 0] ∧ win0_6.index t = ![0, 0] :=
  (by decide +kernel : ∀ t : Fin grid0.N, _)

/-- Sample `p` of block `t` is sample 256·t + p of the batch. -/
def sample (t : Fin cfg0.N) (p : Fin 256) : Fin 8192 :=
  ⟨t.val * 256 + p.val, by have ht : t.val < 32 := lt_of_lt_of_eq t.isLt points; have := p.isLt; omega⟩

/-! ## The input windows' blocks read at an entry -/

/-- Entry (`p`, `k`) of the inputs' block at point `t` is entry (256·t + p, k) of the inputs. -/
theorem inputs_block (c : Dev nD) (t : Fin cfg0.N) (p k : Fin 256) :
    iblk m c 0 t (ix2 p k) = V m c main_arg0 (ix2 (sample t p) k) := by
  have e := (index_tiled t).1
  have e0 : win0_0.index t (0 : Fin 2) = t.val := congrFun e 0
  have e1 : win0_0.index t (1 : Fin 2) = 0 := congrFun e 1
  show V m c main_arg0 (((cfg0.win 0).blk t).view.emb (ix2 p k)) = _
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 256 + 1 * k.val = k.val; omega

/-- Entry (`p`, `q`) of window 1's block at point `t` is entry (256·t + p, q) of its array. -/
theorem potentials_block (c : Dev nD) (t : Fin cfg0.N) (p : Fin 256) (q : Fin 1024) :
    iblk m c 1 t (ix2 p q) = V m c main_arg1 (ix2 (sample t p) q) := by
  have e := (index_tiled t).2.1
  have e0 : win0_1.index t (0 : Fin 2) = t.val := congrFun e 0
  have e1 : win0_1.index t (1 : Fin 2) = 0 := congrFun e 1
  show V m c main_arg1 (((cfg0.win 1).blk t).view.emb (ix2 p q)) = _
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * q.val = q.val; omega

/-- Entry (`p`, `q`) of window 2's block at point `t` is entry (256·t + p, q) of its array. -/
theorem counters_block (c : Dev nD) (t : Fin cfg0.N) (p : Fin 256) (q : Fin 1024) :
    iblk m c 2 t (ix2 p q) = V m c main_arg2 (ix2 (sample t p) q) := by
  have e := (index_tiled t).2.2.1
  have e0 : win0_2.index t (0 : Fin 2) = t.val := congrFun e 0
  have e1 : win0_2.index t (1 : Fin 2) = 0 := congrFun e 1
  show V m c main_arg2 (((cfg0.win 2).blk t).view.emb (ix2 p q)) = _
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

/-- Entry (`p`, `q`) of window 3's block at point `t` is entry (256·t + p, q) of its array. -/
theorem adaptations_block (c : Dev nD) (t : Fin cfg0.N) (p : Fin 256) (q : Fin 1024) :
    iblk m c 3 t (ix2 p q) = V m c main_arg3 (ix2 (sample t p) q) := by
  have e := (index_tiled t).2.2.2.1
  have e0 : win0_3.index t (0 : Fin 2) = t.val := congrFun e 0
  have e1 : win0_3.index t (1 : Fin 2) = 0 := congrFun e 1
  show V m c main_arg3 (((cfg0.win 3).blk t).view.emb (ix2 p q)) = _
  refine congrArg _ (funext fun a => Fin.ext ?_)
  match a with
  | ⟨0, _⟩ => show win0_3.index t (0 : Fin 2) * 256 + 1 * p.val = t.val * 256 + p.val; omega
  | ⟨1, _⟩ => show win0_3.index t (1 : Fin 2) * 1024 + 1 * q.val = q.val; omega

/-- Entry (`p`, `q`) of window 4's block at point `t` is entry (256·t + p, q) of its array. -/
theorem spikes_block (c : Dev nD) (t : Fin cfg0.N) (p : Fin 256) (q : Fin 1024) :
    iblk m c 4 t (ix2 p q) = V m c main_arg4 (ix2 (sample t p) q) := by
  have e := (index_tiled t).2.2.2.2.1
  have e0 : win0_4.index t (0 : Fin 2) = t.val := congrFun e 0
  have e1 : win0_4.index t (1 : Fin 2) = 0 := congrFun e 1
  show V m c main_arg4 (((cfg0.win 4).blk t).view.emb (ix2 p q)) = _
  refine congrArg _ (funext fun a => Fin.ext ?_)
  match a with
  | ⟨0, _⟩ => show win0_4.index t (0 : Fin 2) * 256 + 1 * p.val = t.val * 256 + p.val; omega
  | ⟨1, _⟩ => show win0_4.index t (1 : Fin 2) * 1024 + 1 * q.val = q.val; omega

/-- The input weights' block at every point is the whole array the region finds. -/
theorem inputWeights_block (c : Dev nD) (t : Fin cfg0.N) : iblk m c 5 t = V m c main_v7 := by
  have e := (index_whole t).1
  have e0 : win0_5.index t (0 : Fin 2) = 0 := congrFun e 0
  have e1 : win0_5.index t (1 : Fin 2) = 0 := congrFun e 1
  funext y
  show V m c main_v7 (((cfg0.win 5).blk t).view.emb y) = V m c main_v7 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 1024 + 1 * (y 1).val = (y 1).val; omega

/-- The recurrent weights' block at every point is the whole array the region finds. -/
theorem recurrentWeights_block (c : Dev nD) (t : Fin cfg0.N) : iblk m c 6 t = V m c main_v6 := by
  have e := (index_whole t).2
  have e0 : win0_6.index t (0 : Fin 2) = 0 := congrFun e 0
  have e1 : win0_6.index t (1 : Fin 2) = 0 := congrFun e 1
  funext y
  show V m c main_v6 (((cfg0.win 6).blk t).view.emb y) = V m c main_v6 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-! ## A block's potential is the layer's at the block's place -/

/-- If block entries are the arrays' entries at sample `s` — rows `p` of the two left factors row `s` of theirs — the
    block's new potential at (`p`, `q`) is the layer's at (`s`, `q`): the two currents sum the same products. -/
theorem potential_of_blocks (A0 : (⟨2, ![8192, 256]⟩ : Shape).Idx → EReal) (A1 A3 A4 : Layer.SB.Idx → EReal)
    (A5 : (⟨2, ![256, 1024]⟩ : Shape).Idx → EReal) (A6 : (⟨2, ![1024, 1024]⟩ : Shape).Idx → EReal)
    (x0 : Vec Ideal S256x256 .f32) (x1 x3 x4 : Vec Ideal S256x1024 .f32) (x5 : Vec Ideal S256x1024 .bf16) (x6 : Vec Ideal S1024x1024 .bf16)
    (s : Fin 8192) (p : Fin 256) (q : Fin 1024)
    (h0 : ∀ k : Fin 256, x0 (ix2 p k) = A0 (ix2 s k)) (h1 : x1 (ix2 p q) = A1 (ix2 s q)) (h3 : x3 (ix2 p q) = A3 (ix2 s q))
    (h4 : ∀ k : Fin 1024, x4 (ix2 p k) = A4 (ix2 s k)) (h5 : x5 = A5) (h6 : x6 = A6) :
    Out.blockPotential x0 x1 x3 x4 x5 x6 p q = Layer.newV A0 A1 A3 A4 A5 A6 (ix2 s q) := by
  subst h5 h6
  unfold Out.blockPotential Out.blockCurrent Layer.newV Layer.current
  rw [h1, h3, h4 q]
  simp only [h0, h4]

/-! ## The blocks cover the arrays -/

/-- Entry (`p`, `q`) of output window 7's block at point `t` sits at (256·t + p, q) of its array. -/
theorem out7_entry (t : Fin cfg0.N) (p : Fin 256) (q : Fin 1024) :
    ((cfg0.win 7).blk t).view.emb (ix2 p q) = ix2 (sample t p) q := by
  have e := (index_tiled t).2.2.2.2.2.1
  have e0 : win0_7.index t (0 : Fin 2) = t.val := congrFun e 0
  have e1 : win0_7.index t (1 : Fin 2) = 0 := congrFun e 1
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * q.val = q.val; omega

/-- An index of the array is in point `t`'s block of output window 7 iff each coordinate is in the block's range. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_0).slice (win0_7.rect t)).set ↔ _
  rw [View.set_slice_whole, Rect.mem_set_unit]
  exact Iff.rfl

/-- Sample `b` lies in block `b / 256`: output window 7's blocks cover its array. -/
theorem cover7 (i : S8192x1024.Idx) : ∃ t : Fin cfg0.N, (cfg0.win 7).flush t = true ∧ i ∈ ((cfg0.win 7).blk t).view.set := by
  have hi0 : (i 0).val < 8192 := idx2_lt0 i
  have hi1 : (i 1).val < 1024 := idx2_lt1 i
  have ht : (i 0).val / 256 < cfg0.N := by rw [points]; omega
  have e := (index_tiled ⟨(i 0).val / 256, ht⟩).2.2.2.2.2.1
  have e0 : win0_7.index ⟨(i 0).val / 256, ht⟩ (0 : Fin 2) = (i 0).val / 256 := congrFun e 0
  have e1 : win0_7.index ⟨(i 0).val / 256, ht⟩ (1 : Fin 2) = 0 := congrFun e 1
  refine ⟨⟨(i 0).val / 256, ht⟩, flush0_7 _, ?_⟩
  rw [mem_blk7]
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; omega
  | ⟨1, _⟩ => show win0_7.index ⟨(i 0).val / 256, ht⟩ (1 : Fin 2) * 1024 ≤ (i 1).val ∧ (i 1).val < win0_7.index ⟨(i 0).val / 256, ht⟩ (1 : Fin 2) * 1024 + 1024; omega

/-- Entry (`p`, `q`) of output window 8's block at point `t` sits at (256·t + p, q) of its array. -/
theorem out8_entry (t : Fin cfg0.N) (p : Fin 256) (q : Fin 1024) :
    ((cfg0.win 8).blk t).view.emb (ix2 p q) = ix2 (sample t p) q := by
  have e := (index_tiled t).2.2.2.2.2.2.1
  have e0 : win0_8.index t (0 : Fin 2) = t.val := congrFun e 0
  have e1 : win0_8.index t (1 : Fin 2) = 0 := congrFun e 1
  refine funext fun a => Fin.ext ?_
  match a with
  | ⟨0, _⟩ => show win0_8.index t (0 : Fin 2) * 256 + 1 * p.val = t.val * 256 + p.val; omega
  | ⟨1, _⟩ => show win0_8.index t (1 : Fin 2) * 1024 + 1 * q.val = q.val; omega

/-- An index of the array is in point `t`'s block of output window 8 iff each coordinate is in the block's range. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v8_1).slice (win0_8.rect t)).set ↔ _
  rw [View.set_slice_whole, Rect.mem_set_unit]
  exact Iff.rfl

/-- Sample `b` lies in block `b / 256`: output window 8's blocks cover its array. -/
theorem cover8 (i : S8192x1024.Idx) : ∃ t : Fin cfg0.N, (cfg0.win 8).flush t = true ∧ i ∈ ((cfg0.win 8).blk t).view.set := by
  have hi0 : (i 0).val < 8192 := idx2_lt0 i
  have hi1 : (i 1).val < 1024 := idx2_lt1 i
  have ht : (i 0).val / 256 < cfg0.N := by rw [points]; omega
  have e := (index_tiled ⟨(i 0).val / 256, ht⟩).2.2.2.2.2.2.1
  have e0 : win0_8.index ⟨(i 0).val / 256, ht⟩ (0 : Fin 2) = (i 0).val / 256 := congrFun e 0
  have e1 : win0_8.index ⟨(i 0).val / 256, ht⟩ (1 : Fin 2) = 0 := congrFun e 1
  refine ⟨⟨(i 0).val / 256, ht⟩, flush0_8 _, ?_⟩
  rw [mem_blk8]
  intro a
  match a with
  | ⟨0, _⟩ => show win0_8.index ⟨(i 0).val / 256, ht⟩ (0 : Fin 2) * 256 ≤ (i 0).val ∧ (i 0).val < win0_8.index ⟨(i 0).val / 256, ht⟩ (0 : Fin 2) * 256 + 256; omega
  | ⟨1, _⟩ => show win0_8.index ⟨(i 0).val / 256, ht⟩ (1 : Fin 2) * 1024 ≤ (i 1).val ∧ (i 1).val < win0_8.index ⟨(i 0).val / 256, ht⟩ (1 : Fin 2) * 1024 + 1024; omega

/-- Entry (`p`, `q`) of output window 9's block at point `t` sits at (256·t + p, q) of its array. -/
theorem out9_entry (t : Fin cfg0.N) (p : Fin 256) (q : Fin 1024) :
    ((cfg0.win 9).blk t).view.emb (ix2 p q) = ix2 (sample t p) q := by
  have e := (index_tiled t).2.2.2.2.2.2.2.1
  have e0 : win0_9.index t (0 : Fin 2) = t.val := congrFun e 0
  have e1 : win0_9.index t (1 : Fin 2) = 0 := congrFun e 1
  refine funext fun a => Fin.ext ?_
  match a with
  | ⟨0, _⟩ => show win0_9.index t (0 : Fin 2) * 256 + 1 * p.val = t.val * 256 + p.val; omega
  | ⟨1, _⟩ => show win0_9.index t (1 : Fin 2) * 1024 + 1 * q.val = q.val; omega

/-- An index of the array is in point `t`'s block of output window 9 iff each coordinate is in the block's range. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v8_2).slice (win0_9.rect t)).set ↔ _
  rw [View.set_slice_whole, Rect.mem_set_unit]
  exact Iff.rfl

/-- Sample `b` lies in block `b / 256`: output window 9's blocks cover its array. -/
theorem cover9 (i : S8192x1024.Idx) : ∃ t : Fin cfg0.N, (cfg0.win 9).flush t = true ∧ i ∈ ((cfg0.win 9).blk t).view.set := by
  have hi0 : (i 0).val < 8192 := idx2_lt0 i
  have hi1 : (i 1).val < 1024 := idx2_lt1 i
  have ht : (i 0).val / 256 < cfg0.N := by rw [points]; omega
  have e := (index_tiled ⟨(i 0).val / 256, ht⟩).2.2.2.2.2.2.2.1
  have e0 : win0_9.index ⟨(i 0).val / 256, ht⟩ (0 : Fin 2) = (i 0).val / 256 := congrFun e 0
  have e1 : win0_9.index ⟨(i 0).val / 256, ht⟩ (1 : Fin 2) = 0 := congrFun e 1
  refine ⟨⟨(i 0).val / 256, ht⟩, flush0_9 _, ?_⟩
  rw [mem_blk9]
  intro a
  match a with
  | ⟨0, _⟩ => show win0_9.index ⟨(i 0).val / 256, ht⟩ (0 : Fin 2) * 256 ≤ (i 0).val ∧ (i 0).val < win0_9.index ⟨(i 0).val / 256, ht⟩ (0 : Fin 2) * 256 + 256; omega
  | ⟨1, _⟩ => show win0_9.index ⟨(i 0).val / 256, ht⟩ (1 : Fin 2) * 1024 ≤ (i 1).val ∧ (i 1).val < win0_9.index ⟨(i 0).val / 256, ht⟩ (1 : Fin 2) * 1024 + 1024; omega

/-- Entry (`p`, `q`) of output window 10's block at point `t` sits at (256·t + p, q) of its array. -/
theorem out10_entry (t : Fin cfg0.N) (p : Fin 256) (q : Fin 1024) :
    ((cfg0.win 10).blk t).view.emb (ix2 p q) = ix2 (sample t p) q := by
  have e := (index_tiled t).2.2.2.2.2.2.2.2
  have e0 : win0_10.index t (0 : Fin 2) = t.val := congrFun e 0
  have e1 : win0_10.index t (1 : Fin 2) = 0 := congrFun e 1
  refine funext fun a => Fin.ext ?_
  match a with
  | ⟨0, _⟩ => show win0_10.index t (0 : Fin 2) * 256 + 1 * p.val = t.val * 256 + p.val; omega
  | ⟨1, _⟩ => show win0_10.index t (1 : Fin 2) * 1024 + 1 * q.val = q.val; omega

/-- An index of the array is in point `t`'s block of output window 10 iff each coordinate is in the block's range. -/
theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v8_3).slice (win0_10.rect t)).set ↔ _
  rw [View.set_slice_whole, Rect.mem_set_unit]
  exact Iff.rfl

/-- Sample `b` lies in block `b / 256`: output window 10's blocks cover its array. -/
theorem cover10 (i : S8192x1024.Idx) : ∃ t : Fin cfg0.N, (cfg0.win 10).flush t = true ∧ i ∈ ((cfg0.win 10).blk t).view.set := by
  have hi0 : (i 0).val < 8192 := idx2_lt0 i
  have hi1 : (i 1).val < 1024 := idx2_lt1 i
  have ht : (i 0).val / 256 < cfg0.N := by rw [points]; omega
  have e := (index_tiled ⟨(i 0).val / 256, ht⟩).2.2.2.2.2.2.2.2
  have e0 : win0_10.index ⟨(i 0).val / 256, ht⟩ (0 : Fin 2) = (i 0).val / 256 := congrFun e 0
  have e1 : win0_10.index ⟨(i 0).val / 256, ht⟩ (1 : Fin 2) = 0 := congrFun e 1
  refine ⟨⟨(i 0).val / 256, ht⟩, flush0_10 _, ?_⟩
  rw [mem_blk10]
  intro a
  match a with
  | ⟨0, _⟩ => show win0_10.index ⟨(i 0).val / 256, ht⟩ (0 : Fin 2) * 256 ≤ (i 0).val ∧ (i 0).val < win0_10.index ⟨(i 0).val / 256, ht⟩ (0 : Fin 2) * 256 + 256; omega
  | ⟨1, _⟩ => show win0_10.index ⟨(i 0).val / 256, ht⟩ (1 : Fin 2) * 1024 ≤ (i 1).val ∧ (i 1).val < win0_10.index ⟨(i 0).val / 256, ht⟩ (1 : Fin 2) * 1024 + 1024; omega

/-! ## What each point writes back -/

/-- An array read through output window 7's block at point `t`, at entry (`p`, `q`), is the array at (256·t + p, q). -/
theorem read7 (G : Layer.SB.Idx → EReal) (t : Fin cfg0.N) (p : Fin 256) (q : Fin 1024) :
    ((cfg0.win 7).blk t).view.read (Elt Ideal) G (ix2 p q) = G (ix2 (sample t p) q) := by
  show G (((cfg0.win 7).blk t).view.emb (ix2 p q)) = _
  rw [out7_entry]

/-- An array read through output window 8's block at point `t`, at entry (`p`, `q`), is the array at (256·t + p, q). -/
theorem read8 (G : Layer.SB.Idx → EReal) (t : Fin cfg0.N) (p : Fin 256) (q : Fin 1024) :
    ((cfg0.win 8).blk t).view.read (Elt Ideal) G (ix2 p q) = G (ix2 (sample t p) q) := by
  show G (((cfg0.win 8).blk t).view.emb (ix2 p q)) = _
  rw [out8_entry]

/-- An array read through output window 9's block at point `t`, at entry (`p`, `q`), is the array at (256·t + p, q). -/
theorem read9 (G : Layer.SB.Idx → BitVec 32) (t : Fin cfg0.N) (p : Fin 256) (q : Fin 1024) :
    ((cfg0.win 9).blk t).view.read (Elt Ideal) G (ix2 p q) = G (ix2 (sample t p) q) := by
  show G (((cfg0.win 9).blk t).view.emb (ix2 p q)) = _
  rw [out9_entry]

/-- An array read through output window 10's block at point `t`, at entry (`p`, `q`), is the array at (256·t + p, q). -/
theorem read10 (G : Layer.SB.Idx → EReal) (t : Fin cfg0.N) (p : Fin 256) (q : Fin 1024) :
    ((cfg0.win 10).blk t).view.read (Elt Ideal) G (ix2 p q) = G (ix2 (sample t p) q) := by
  show G (((cfg0.win 10).blk t).view.emb (ix2 p q)) = _
  rw [out10_entry]

/-- Point `t` writes back block `t` of the new potentials. -/
theorem flushed7_eq (c : Dev nD) (t : Fin cfg0.N) :
    (dats m 0 c).flushed 7 t = ((cfg0.win 7).blk t).view.read (Elt Ideal) (Layer.newV (V m c main_arg0) (V m c main_arg1) (V m c main_arg3) (V m c main_arg4) (V m c main_v7) (V m c main_v6)) := by
  rw [Value.flushed7]
  funext y
  obtain ⟨p, q, rfl⟩ : ∃ (p : Fin 256) (q : Fin 1024), y = ix2 p q := ⟨y 0, y 1, eq_ix2 y⟩
  refine Eq.trans ?_ (read7 (Layer.newV (V m c main_arg0) (V m c main_arg1) (V m c main_arg3) (V m c main_arg4) (V m c main_v7) (V m c main_v6)) t p q).symm
  show out0_7 (iblk m c 0 t) (iblk m c 1 t) (iblk m c 2 t) (iblk m c 3 t) (iblk m c 4 t) (iblk m c 5 t) (iblk m c 6 t) (ix2 p q) = _
  exact (Out.potentials_apply (iblk m c 0 t) (iblk m c 1 t) (iblk m c 2 t) (iblk m c 3 t) (iblk m c 4 t) (iblk m c 5 t) (iblk m c 6 t) p q).trans (potential_of_blocks (V m c main_arg0) (V m c main_arg1) (V m c main_arg3) (V m c main_arg4) (V m c main_v7) (V m c main_v6)
      (iblk m c 0 t) (iblk m c 1 t) (iblk m c 3 t) (iblk m c 4 t) (iblk m c 5 t) (iblk m c 6 t) (sample t p) p q
      (fun k => inputs_block m c t p k) (potentials_block m c t p q) (adaptations_block m c t p q) (fun k => spikes_block m c t p k)
      (inputWeights_block m c t) (recurrentWeights_block m c t))

/-- Point `t` writes back block `t` of the new spikes. -/
theorem flushed8_eq (c : Dev nD) (t : Fin cfg0.N) :
    (dats m 0 c).flushed 8 t = ((cfg0.win 8).blk t).view.read (Elt Ideal) (Layer.newZ (V m c main_arg0) (V m c main_arg1) (V m c main_arg2) (V m c main_arg3) (V m c main_arg4) (V m c main_v7) (V m c main_v6)) := by
  rw [Value.flushed8]
  funext y
  obtain ⟨p, q, rfl⟩ : ∃ (p : Fin 256) (q : Fin 1024), y = ix2 p q := ⟨y 0, y 1, eq_ix2 y⟩
  refine Eq.trans ?_ (read8 (Layer.newZ (V m c main_arg0) (V m c main_arg1) (V m c main_arg2) (V m c main_arg3) (V m c main_arg4) (V m c main_v7) (V m c main_v6)) t p q).symm
  show out0_8 (iblk m c 0 t) (iblk m c 1 t) (iblk m c 2 t) (iblk m c 3 t) (iblk m c 4 t) (iblk m c 5 t) (iblk m c 6 t) (ix2 p q) = _
  refine (Out.spikes_apply (iblk m c 0 t) (iblk m c 1 t) (iblk m c 2 t) (iblk m c 3 t) (iblk m c 4 t) (iblk m c 5 t) (iblk m c 6 t) p q).trans ?_
  refine Eq.trans (congrArg₂ (Neuron.spike (F := Ideal)) (counters_block m c t p q) (potential_of_blocks (V m c main_arg0) (V m c main_arg1) (V m c main_arg3) (V m c main_arg4) (V m c main_v7) (V m c main_v6)
      (iblk m c 0 t) (iblk m c 1 t) (iblk m c 3 t) (iblk m c 4 t) (iblk m c 5 t) (iblk m c 6 t) (sample t p) p q
      (fun k => inputs_block m c t p k) (potentials_block m c t p q) (adaptations_block m c t p q) (fun k => spikes_block m c t p k)
      (inputWeights_block m c t) (recurrentWeights_block m c t))) ?_
  rfl

/-- Point `t` writes back block `t` of the new counters. -/
theorem flushed9_eq (c : Dev nD) (t : Fin cfg0.N) :
    (dats m 0 c).flushed 9 t = ((cfg0.win 9).blk t).view.read (Elt Ideal) (Layer.newR (V m c main_arg0) (V m c main_arg1) (V m c main_arg2) (V m c main_arg3) (V m c main_arg4) (V m c main_v7) (V m c main_v6)) := by
  rw [Value.flushed9]
  funext y
  obtain ⟨p, q, rfl⟩ : ∃ (p : Fin 256) (q : Fin 1024), y = ix2 p q := ⟨y 0, y 1, eq_ix2 y⟩
  refine Eq.trans ?_ (read9 (Layer.newR (V m c main_arg0) (V m c main_arg1) (V m c main_arg2) (V m c main_arg3) (V m c main_arg4) (V m c main_v7) (V m c main_v6)) t p q).symm
  show out0_9 (iblk m c 0 t) (iblk m c 1 t) (iblk m c 2 t) (iblk m c 3 t) (iblk m c 4 t) (iblk m c 5 t) (iblk m c 6 t) (ix2 p q) = _
  refine (Out.counters_apply (iblk m c 0 t) (iblk m c 1 t) (iblk m c 2 t) (iblk m c 3 t) (iblk m c 4 t) (iblk m c 5 t) (iblk m c 6 t) p q).trans ?_
  refine Eq.trans (congrArg₂ (Neuron.refrac (F := Ideal)) (counters_block m c t p q)
    (congrArg₂ (Neuron.spike (F := Ideal)) (counters_block m c t p q) (potential_of_blocks (V m c main_arg0) (V m c main_arg1) (V m c main_arg3) (V m c main_arg4) (V m c main_v7) (V m c main_v6)
      (iblk m c 0 t) (iblk m c 1 t) (iblk m c 3 t) (iblk m c 4 t) (iblk m c 5 t) (iblk m c 6 t) (sample t p) p q
      (fun k => inputs_block m c t p k) (potentials_block m c t p q) (adaptations_block m c t p q) (fun k => spikes_block m c t p k)
      (inputWeights_block m c t) (recurrentWeights_block m c t)))) ?_
  rfl

/-- Point `t` writes back block `t` of the new adaptation currents. -/
theorem flushed10_eq (c : Dev nD) (t : Fin cfg0.N) :
    (dats m 0 c).flushed 10 t = ((cfg0.win 10).blk t).view.read (Elt Ideal) (Layer.newW (V m c main_arg1) (V m c main_arg3) (V m c main_arg4)) := by
  rw [Value.flushed10]
  funext y
  obtain ⟨p, q, rfl⟩ : ∃ (p : Fin 256) (q : Fin 1024), y = ix2 p q := ⟨y 0, y 1, eq_ix2 y⟩
  refine Eq.trans ?_ (read10 (Layer.newW (V m c main_arg1) (V m c main_arg3) (V m c main_arg4)) t p q).symm
  show out0_10 (iblk m c 0 t) (iblk m c 1 t) (iblk m c 2 t) (iblk m c 3 t) (iblk m c 4 t) (iblk m c 5 t) (iblk m c 6 t) (ix2 p q) = _
  refine (Out.adaptations_apply (iblk m c 0 t) (iblk m c 1 t) (iblk m c 2 t) (iblk m c 3 t) (iblk m c 4 t) (iblk m c 5 t) (iblk m c 6 t) (ix2 p q)).trans ?_
  refine Eq.trans (congr (congrArg₂ (Neuron.adapt (F := Ideal)) (potentials_block m c t p q) (adaptations_block m c t p q)) (spikes_block m c t p q)) ?_
  rfl

/-! ## The weight operands as the region finds them -/

/-- The recurrent weights with the diagonal replaced by zero: the program's host operations, as one function. -/
def diagonalZeroed (x6 : (⟨S1024x1024, .f32⟩ : BufTy).Contents (Elt Ideal)) : (⟨S1024x1024, .f32⟩ : BufTy).Contents (Elt Ideal) :=
  select (cmpi .eq (addi (iotaInDim S1024x1024 32 0) (broadcastInDim S1024x1024 ![] bcast_S_S1024x1024 (constantI S_ 32 0#32))) (iotaInDim S1024x1024 32 1))
    (broadcastInDim S1024x1024 ![] bcast_S_S1024x1024 (id (constant (F := Ideal) S_ .f32 0x00000000#32))) x6

/-- The input-weight operand is the input weights (their change of float format is the identity here). -/
theorem inputWeights_found (c : Dev nD) :
    (V m c main_v7 : S256x1024.Idx → EReal) = m ((c : Thread nD τ).loc main_arg5) := by
  dsimp only [V]
  simp only [hostOps0, hostOps0_1, hostOps0_2, List.flatten_cons, List.flatten_nil, List.append_nil, List.cons_append, List.nil_append]
  after_results
  rfl

/-- The recurrent-weight operand is the recurrent weights with the diagonal zeroed. -/
theorem recurrentWeights_found (c : Dev nD) :
    (V m c main_v6 : S1024x1024.Idx → EReal) = diagonalZeroed (m ((c : Thread nD τ).loc main_arg6)) := by
  dsimp only [V]
  simp only [hostOps0, hostOps0_1, hostOps0_2, List.flatten_cons, List.flatten_nil, List.append_nil, List.cons_append, List.nil_append]
  after_results
  rfl

/-! ## The result arrays after the run -/

theorem final7 (c : Dev nD) : (dats m 0 c).arrAt 7 cfg0.N = Layer.newV (m ((c : Thread nD τ).loc main_arg0)) (m ((c : Thread nD τ).loc main_arg1)) (m ((c : Thread nD τ).loc main_arg3)) (m ((c : Thread nD τ).loc main_arg4)) (m ((c : Thread nD τ).loc main_arg5)) (diagonalZeroed (m ((c : Thread nD τ).loc main_arg6))) := by
  rw [(dats m 0 c).arrAt_eq_of_cover 7 (Layer.newV (V m c main_arg0) (V m c main_arg1) (V m c main_arg3) (V m c main_arg4) (V m c main_v7) (V m c main_v6)) (fun t _ => flushed7_eq m c t) cover7,
    V_main_arg0, V_main_arg1, V_main_arg3, V_main_arg4, inputWeights_found, recurrentWeights_found]

theorem final8 (c : Dev nD) : (dats m 0 c).arrAt 8 cfg0.N = Layer.newZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (diagonalZeroed (m ((c : Thread nD τ).loc main_arg6))) := by
  rw [(dats m 0 c).arrAt_eq_of_cover 8 (Layer.newZ (V m c main_arg0) (V m c main_arg1) (V m c main_arg2) (V m c main_arg3) (V m c main_arg4) (V m c main_v7) (V m c main_v6)) (fun t _ => flushed8_eq m c t) cover8,
    V_main_arg0, V_main_arg1, V_main_arg2, V_main_arg3, V_main_arg4, inputWeights_found, recurrentWeights_found]

theorem final9 (c : Dev nD) : (dats m 0 c).arrAt 9 cfg0.N = Layer.newR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (diagonalZeroed (m ((c : Thread nD τ).loc main_arg6))) := by
  rw [(dats m 0 c).arrAt_eq_of_cover 9 (Layer.newR (V m c main_arg0) (V m c main_arg1) (V m c main_arg2) (V m c main_arg3) (V m c main_arg4) (V m c main_v7) (V m c main_v6)) (fun t _ => flushed9_eq m c t) cover9,
    V_main_arg0, V_main_arg1, V_main_arg2, V_main_arg3, V_main_arg4, inputWeights_found, recurrentWeights_found]

theorem final10 (c : Dev nD) : (dats m 0 c).arrAt 10 cfg0.N = Layer.newW (m ((c : Thread nD τ).loc main_arg1)) (m ((c : Thread nD τ).loc main_arg3)) (m ((c : Thread nD τ).loc main_arg4)) := by
  rw [(dats m 0 c).arrAt_eq_of_cover 10 (Layer.newW (V m c main_arg1) (V m c main_arg3) (V m c main_arg4)) (fun t _ => flushed10_eq m c t) cover10,
    V_main_arg1, V_main_arg3, V_main_arg4]

/-! ## The run -/

/-- Every weakly fair execution of the kernel's program terminates with the four result arrays at the layer step of the
    arguments as launched, the arguments unchanged. -/
theorem run : θ_run defs (onTc (τ := τ) (main (F := Ideal))) ⟨m, fun _ => 0, ρ⟩ fun r => ∀ c : Dev nD,
      r.2.mem ((c : Thread nD τ).loc main_v8_0) = Layer.newV (m ((c : Thread nD τ).loc main_arg0)) (m ((c : Thread nD τ).loc main_arg1)) (m ((c : Thread nD τ).loc main_arg3)) (m ((c : Thread nD τ).loc main_arg4)) (m ((c : Thread nD τ).loc main_arg5)) (diagonalZeroed (m ((c : Thread nD τ).loc main_arg6)))
      ∧ r.2.mem ((c : Thread nD τ).loc main_v8_1) = Layer.newZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (diagonalZeroed (m ((c : Thread nD τ).loc main_arg6)))
      ∧ r.2.mem ((c : Thread nD τ).loc main_v8_2) = Layer.newR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (diagonalZeroed (m ((c : Thread nD τ).loc main_arg6)))
      ∧ r.2.mem ((c : Thread nD τ).loc main_v8_3) = Layer.newW (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c),
      (h c).2.2.2.1.trans (final10 m c), (h c).2.2.2.2⟩)
    (Value.run_blocks m ρ)

end Cert.KernelIdeal.Blocks

end
-- ==== Proof.RefLayer.lean ====
/-
  The reference program computes the layer step of Proof/Layer.lean.

  Its run ends with each result at the composed term of its host operations; read one operation at a time at an index
  `i` = (sample, neuron), that term is the scalar step in the host's spelling (Proof/Neuron.lean: `driveHost`,
  `spikeHost`) of the arguments' entries at `i` and of the current, and the current is the sum of the two matrix
  products' entries there — each a sum over the contracted index of a row entry times a column entry.  The host's
  spelling is the other spelling at the ideal values (`Neuron.driveHost_eq`, `Neuron.spikeHost_eq`).  The recurrent
  weights enter only through the matrix the program builds from them by zeroing the diagonal (`val_main_v5`), which
  is kept as it is.
-/
import proofs.«180994_j80693845557792_2_alg».proof.Proof.RefRead
import proofs.«180994_j80693845557792_2_alg».proof.Proof.Layer

noncomputable section

namespace Cert.ReferenceIdeal.RefLayer

open Cert.ReferenceIdeal Cert.ReferenceIdeal.ReadP Idealize.ShloMosaic

variable (x0 : (⟨S8192x256, .f32⟩ : BufTy).Contents (Elt Ideal)) (x1 : (⟨S8192x1024, .f32⟩ : BufTy).Contents (Elt Ideal))
  (x2 : (⟨S8192x1024, .i32⟩ : BufTy).Contents (Elt Ideal)) (x3 x4 : (⟨S8192x1024, .f32⟩ : BufTy).Contents (Elt Ideal))
  (x5 : (⟨S256x1024, .f32⟩ : BufTy).Contents (Elt Ideal)) (x6 : (⟨S1024x1024, .f32⟩ : BufTy).Contents (Elt Ideal))

/-- The operand indices of the two products at output index `i` and contracted index `k`: row `i 0` at column `k` on the
    left, row `k` at column `i 1` on the right. -/
theorem lidx6 (i : S8192x1024.Idx) (k : Fin 256) : lidx_main_v6 i k = Layer.rowAt i k :=
  funext fun a => by match a with | ⟨0, _⟩ => rfl | ⟨1, _⟩ => rfl
theorem ridx6 (i : S8192x1024.Idx) (k : Fin 256) : ridx_main_v6 i k = Layer.colAt i k :=
  funext fun a => by match a with | ⟨0, _⟩ => rfl | ⟨1, _⟩ => rfl
theorem lidx7 (i : S8192x1024.Idx) (k : Fin 1024) : lidx_main_v7 i k = Layer.rowAt i k :=
  funext fun a => by match a with | ⟨0, _⟩ => rfl | ⟨1, _⟩ => rfl
theorem ridx7 (i : S8192x1024.Idx) (k : Fin 1024) : ridx_main_v7 i k = Layer.colAt i k :=
  funext fun a => by match a with | ⟨0, _⟩ => rfl | ⟨1, _⟩ => rfl

/-- The sum of the two matrix products at an index is the current. -/
theorem current_at (i : S8192x1024.Idx) :
    val_main_v8 (F := Ideal) x0 x4 x5 x6 i = Layer.current x0 x4 x5 (val_main_v5 (F := Ideal) x6) i := by
  rw [val_main_v8_apply, val_main_v6_apply, val_main_v7_apply]
  simp only [lidx6, ridx6, lidx7, ridx7]
  rfl

/-- The first result at an index: the reset of the host-spelt potential. -/
theorem v31_at (i : S8192x1024.Idx) :
    val_main_v31 (F := Ideal) x0 x1 x3 x4 x5 x6 i
      = Neuron.reset (F := Ideal) (x4 i) (Neuron.driveHost (F := Ideal) (x1 i) (x3 i) (val_main_v8 (F := Ideal) x0 x4 x5 x6 i)) := rfl

/-- The second result at an index: the host-spelt spike of the counter and the first result. -/
theorem v53_at (i : S8192x1024.Idx) :
    val_main_v53 (F := Ideal) x0 x1 x2 x3 x4 x5 x6 i
      = Neuron.spikeHost (F := Ideal) (x2 i) (val_main_v31 (F := Ideal) x0 x1 x3 x4 x5 x6 i) := rfl

/-- The third result at an index: the counter's step from the second result. -/
theorem v60_at (i : S8192x1024.Idx) :
    val_main_v60 (F := Ideal) x0 x1 x2 x3 x4 x5 x6 i
      = Neuron.refrac (F := Ideal) (x2 i) (val_main_v53 (F := Ideal) x0 x1 x2 x3 x4 x5 x6 i) := rfl

/-- The fourth result at an index. -/
theorem v42_at (i : S8192x1024.Idx) :
    val_main_v42 (F := Ideal) x1 x3 x4 i = Neuron.adapt (F := Ideal) (x1 i) (x3 i) (x4 i) := rfl

theorem newV_eq : val_main_v31 (F := Ideal) x0 x1 x3 x4 x5 x6 = Layer.newV x0 x1 x3 x4 x5 (val_main_v5 (F := Ideal) x6) := by
  funext i
  rw [v31_at, current_at, Neuron.driveHost_eq]
  rfl

theorem newZ_eq : val_main_v53 (F := Ideal) x0 x1 x2 x3 x4 x5 x6 = Layer.newZ x0 x1 x2 x3 x4 x5 (val_main_v5 (F := Ideal) x6) := by
  funext i
  rw [v53_at, newV_eq, Neuron.spikeHost_eq]
  rfl

theorem newR_eq : val_main_v60 (F := Ideal) x0 x1 x2 x3 x4 x5 x6 = Layer.newR x0 x1 x2 x3 x4 x5 (val_main_v5 (F := Ideal) x6) := by
  funext i
  rw [v60_at, newZ_eq]
  rfl

theorem newW_eq : val_main_v42 (F := Ideal) x1 x3 x4 = Layer.newW x1 x3 x4 := by
  funext i
  exact v42_at x1 x3 x4 i

end Cert.ReferenceIdeal.RefLayer

end
-- ==== Proof.lean ====
/-
  The certificate: a layer of adaptive exponential integrate-and-fire neurons stepped once, as a tiled kernel and as a
  plain array program, computes the same four arrays at the ideal values.

  Both programs end with each result array at the layer step of Proof/Layer.lean of their arguments (the kernel:
  Proof/KernelBlocks.lean, block by block over its 32 grid points; the reference: its run read one operation at a time,
  Proof/RefLayer.lean), with the recurrent weights entering through the matrix each program builds from them by the
  same host operations (zero on the diagonal), so from memories that agree on the seven arguments the results are
  equal entry by entry.  Where the two programs spell a value differently — the exponential clipped on one side or
  on both, the vector unit's or the host's quotient and negation, a comparison's bit converted through a signed
  word or directly, a product of a block of rows or of all rows — the values agree on every extended real
  (Proof/Neuron.lean, Proof/KernelPoint.lean), so the precondition that the inputs are finite is not used.
  The three frames: the two kernels' by their launch-and-body frame proofs, the reference's by its run.  The
  idealized kernel is the kernel's own text read at the ideal values: there is no rewrite to account for.
-/
import proofs.«180994_j80693845557792_2_alg».proof.Defs
import proofs.«180994_j80693845557792_2_alg».proof.Proof.Gen.Kernel
import proofs.«180994_j80693845557792_2_alg».proof.Proof.Gen.Kernel.Skeleton
import proofs.«180994_j80693845557792_2_alg».proof.Proof.Gen.Kernel.Launch
import proofs.«180994_j80693845557792_2_alg».proof.Proof.Gen.Kernel.Points
import proofs.«180994_j80693845557792_2_alg».proof.Proof.Gen.Kernel.Frame
import proofs.«180994_j80693845557792_2_alg».proof.Proof.Gen.KernelIdeal
import proofs.«180994_j80693845557792_2_alg».proof.Proof.Gen.KernelIdeal.Skeleton
import proofs.«180994_j80693845557792_2_alg».proof.Proof.Gen.KernelIdeal.Launch
import proofs.«180994_j80693845557792_2_alg».proof.Proof.Gen.KernelIdeal.Points
import proofs.«180994_j80693845557792_2_alg».proof.Proof.Gen.KernelIdeal.Frame
import proofs.«180994_j80693845557792_2_alg».proof.Proof.Gen.ReferenceIdeal
import proofs.«180994_j80693845557792_2_alg».proof.Proof.Gen.KernelIdeal.Value
import proofs.«180994_j80693845557792_2_alg».proof.Proof.Gen.Pre_finite_inputs
import proofs.«180994_j80693845557792_2_alg».proof.Proof.KernelBlocks
import proofs.«180994_j80693845557792_2_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2.2) (Cert.ReferenceIdeal.RunP.run (F := Ideal) m ρ)

/-- The two programs build the zero-diagonal recurrent matrix by the same operations. -/
theorem diagonalZeroed_eq (x6 : (⟨Cert.ReferenceIdeal.S1024x1024, .f32⟩ : BufTy).Contents (Elt Ideal)) :
    Cert.ReferenceIdeal.ReadP.val_main_v5 (F := Ideal) x6 = Cert.KernelIdeal.Blocks.diagonalZeroed x6 := rfl

/-- From memories agreeing on the arguments both programs end at the layer step of those arguments. -/
theorem algebraic : Cert.algebraic_KernelIdeal_ReferenceIdeal := by
  intro m ρ m' ρ' _ hagree
  refine ⟨_, _, _, _, Cert.KernelIdeal.Blocks.run m ρ, ?_⟩
  refine (θ_run Cert.ReferenceIdeal.defs _ _).mono (fun _ h c => ?_) (Cert.ReferenceIdeal.RunP.run (F := Ideal) m' ρ')
  obtain ⟨h0, h1, h2, h3, hargs⟩ := h c
  obtain ⟨a0, a1, a2, a3, a4, a5, a6⟩ := hagree c
  refine ⟨h0.trans ?_, h1.trans ?_, h2.trans ?_, h3.trans ?_, hargs⟩
  · rw [Cert.ReferenceIdeal.ReadP.val_main_v31_eq, Cert.ReferenceIdeal.RefLayer.newV_eq, diagonalZeroed_eq, a0, a1, a3, a4, a5, a6]
  · rw [Cert.ReferenceIdeal.ReadP.val_main_v53_eq, Cert.ReferenceIdeal.RefLayer.newZ_eq, diagonalZeroed_eq, a0, a1, a2, a3, a4, a5, a6]
  · rw [Cert.ReferenceIdeal.ReadP.val_main_v60_eq, Cert.ReferenceIdeal.RefLayer.newR_eq, diagonalZeroed_eq, a0, a1, a2, a3, a4, a5, a6]
  · rw [Cert.ReferenceIdeal.ReadP.val_main_v42_eq, Cert.ReferenceIdeal.RefLayer.newW_eq, a1, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
